-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  main_v3
-- ==== Kernel.lean ====
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S512x3200 : Shape := ⟨2, ![512, 3200]⟩
abbrev S512x1 : Shape := ⟨2, ![512, 1]⟩
abbrev S512 : Shape := ⟨1, ![512]⟩

abbrev nBuf : Space → Nat
  | .hbm => 34
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096x1, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S4096x32000.size a
  hwx0_0 : ∀ i : grid0.Coords, EltTy.bits .f32 = 32 ∨ (Rect.block (s := S4096x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KernelPieces.lean ====
/-
  What one run of the kernel body leaves behind, as values. The body keeps, per row of its 512-row tile, a running
  maximum (first scratch buffer) and a running sum of exponentials (second scratch buffer). On the first column
  tile it first resets them to -∞ and 0; on every tile it replaces them by the updated maximum and the rescaled sum
  plus the tile's own sum; on the last column tile it also stores maximum + log(sum) into the output block.
  Each of these is one whole-buffer store, so what a buffer holds afterwards is that store's value, a pure function
  of the input tile and of what the two scratch buffers held before.
-/
import proofs.«164738_j86629490360769_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## A middle column tile -/

/-- The running maximum becomes the larger of the old one and the tile's row maximum. -/
theorem max_B (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x : Vec F S512x3200 .f32) (mo lo : Vec F S512x1 .f32) :
    sout0_B_0 c i a2 h2 a3 h3 a4 h4 a5 h5 hc0 hc1 x mo lo = k0_pay5 x mo := by
  unfold sout0_B_0
  rw [View.read_writes_eq_canon _ _ _ (scover0_B_0 c i a2 h2 a3 h3 a4 h4 a5 h5 hc0 hc1 x mo lo)]
  unfold kernelRun0_B
  dsimp only
  rw [View.canon_unit_zero hz]
  simp only [View.readAt_eq_ld, h2.read_unread, h4.read_unread, h5.read_unread, View.ld_unit_zero (S := S512x3200) hz,
    View.ld_unit_zero (S := S512x1) hz]

/-- The running sum becomes the old one rescaled to the new maximum plus the tile's own sum of exponentials. -/
theorem sum_B (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x : Vec F S512x3200 .f32) (mo lo : Vec F S512x1 .f32) :
    sout0_B_1 c i a2 h2 a3 h3 a4 h4 a5 h5 hc0 hc1 x mo lo = k0_pay4 x mo lo := by
  unfold sout0_B_1
  rw [View.read_writes_eq_canon _ _ _ (scover0_B_1 c i a2 h2 a3 h3 a4 h4 a5 h5 hc0 hc1 x mo lo)]
  unfold kernelRun0_B
  dsimp only
  rw [View.canon_unit_zero hz]
  simp only [View.readAt_eq_ld, h2.read_unread, h4.read_unread, h5.read_unread, View.ld_unit_zero (S := S512x3200) hz,
    View.ld_unit_zero (S := S512x1) hz]

/-! ## The last column tile: the same two updates, and the output block -/

theorem max_C (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x3200 .f32) (mo lo : Vec F S512x1 .f32) :
    sout0_C_0 c i a2 h2 a3 h3 a4 h4 a5 h5 hc0 hc1 x mo lo = k0_pay5 x mo := by
  unfold sout0_C_0
  rw [View.read_writes_eq_canon _ _ _ (scover0_C_0 c i a2 h2 a3 h3 a4 h4 a5 h5 hc0 hc1 x mo lo)]
  unfold kernelRun0_C
  dsimp only
  sl_unfold_words
  rw [View.canon_unit_zero hz]
  simp only [View.readAt_eq_ld, h2.read_unread, h4.read_unread, h5.read_unread, View.ld_unit_zero (S := S512x3200) hz,
    View.ld_unit_zero (S := S512x1) hz]

theorem sum_C (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x3200 .f32) (mo lo : Vec F S512x1 .f32) :
    sout0_C_1 c i a2 h2 a3 h3 a4 h4 a5 h5 hc0 hc1 x mo lo = k0_pay4 x mo lo := by
  unfold sout0_C_1
  rw [View.read_writes_eq_canon _ _ _ (scover0_C_1 c i a2 h2 a3 h3 a4 h4 a5 h5 hc0 hc1 x mo lo)]
  unfold kernelRun0_C
  dsimp only
  sl_unfold_words
  rw [View.canon_unit_zero hz]
  simp only [View.readAt_eq_ld, h2.read_unread, h4.read_unread, h5.read_unread, View.ld_unit_zero (S := S512x3200) hz,
    View.ld_unit_zero (S := S512x1) hz]

/-- The output block: the updated maximum plus the logarithm of the updated sum. -/
theorem out_C (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x3200 .f32) (mo lo : Vec F S512x1 .f32) :
    out0_C_1 c i a2 h2 a3 h3 a4 h4 a5 h5 hc0 hc1 x mo lo = k0_pay6 (k0_pay5 x mo) (k0_pay4 x mo lo) := by
  unfold out0_C_1
  rw [View.read_writes_eq_canon _ _ _ (cover0_C_1 c i a2 h2 a3 h3 a4 h4 a5 h5 hc0 hc1 x mo lo)]
  unfold kernelRun0_C
  dsimp only
  sl_unfold_words
  rw [View.canon_unit_zero hz, View.readCov_unit_zero (S := S512x1) _ hz, View.readCov_unit_zero (S := S512x1) _ hz]
  simp only [View.readAt_eq_ld, h2.read_unread, h4.read_unread, h5.read_unread, View.ld_unit_zero (S := S512x3200) hz,
    View.ld_unit_zero (S := S512x1) hz]

/-! ## The first column tile: the two buffers are reset to -∞ and 0 first -/

theorem max_A (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x : Vec F S512x3200 .f32) :
    sout0_A_0 c i a2 h2 a3 h3 a4 h4 a5 h5 hc0 hc1 x = k0_pay5 x k0_pay1 := by
  unfold sout0_A_0
  rw [View.read_writes_eq_canon _ _ _ (scover0_A_0 c i a2 h2 a3 h3 a4 h4 a5 h5 hc0 hc1 x)]
  unfold kernelRun0_A
  dsimp only
  sl_unfold_words
  rw [View.canon_cons_unit_zero (S := S512x1) hz, View.readCov_unit_zero (S := S512x1) _ hz]
  simp only [View.readAt_eq_ld, h2.read_unread, View.ld_unit_zero (S := S512x3200) hz]

theorem sum_A (c : Dev nD) (i : grid0.Coords) (a2 : Memref sig .tc .vmem S512x3200 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x : Vec F S512x3200 .f32) :
    sout0_A_1 c i a2 h2 a3 h3 a4 h4 a5 h5 hc0 hc1 x = k0_pay4 x k0_pay1 k0_pay2 := by
  unfold sout0_A_1
  rw [View.read_writes_eq_canon _ _ _ (scover0_A_1 c i a2 h2 a3 h3 a4 h4 a5 h5 hc0 hc1 x)]
  unfold kernelRun0_A
  dsimp only
  sl_unfold_words
  rw [View.canon_cons_unit_zero (S := S512x1) hz, View.readCov_unit_zero (S := S512x1) _ hz,
    View.readCov_unit_zero (S := S512x1) _ hz]
  simp only [View.readAt_eq_ld, h2.read_unread, View.ld_unit_zero (S := S512x3200) hz]

end Cert.KernelIdeal.Pieces

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.KernelPayload.lean ====
/-
  The kernel body's arithmetic read one row at a time, on the extended reals. For row `p` of a 512-row tile `x`
  with 3200 columns, given the old running maximum `mo` and the old running sum `lo` of that row:
  the new maximum is `max mo (max over the tile's row)`, the new sum is
  `lo * exp (mo - new maximum) + Σ_o exp (x p o - new maximum)`, and the block written out on the last tile is
  `maximum + log sum`. The reset values are the words of -∞ and of 0.
-/
import proofs.«164738_j86629490360769_2_alg».proof.Proof.Gen.KernelIdeal.Skeleton
import proofs.«164738_j86629490360769_2_alg».proof.Proof.LibKeepdims
import proofs.«164738_j86629490360769_2_alg».proof.Proof.LibRowReduce
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The tile's row maximum, from the word of -∞. -/
abbrev tileMax (x : Vec Ideal S512x3200 .f32) (p : Fin 512) : EReal :=
  (Finset.univ : Finset (Fin 3200)).fold max (Ideal.ofBits .f32 0xFF800000#32) (fun o => x (ix2 p o))

/-- The reset maximum is the word of -∞ in every row. -/
theorem pay1_apply (j : S512x1.Idx) : k0_pay1 (F := Ideal) j = Ideal.ofBits .f32 0xFF800000#32 := by
  unfold k0_pay1
  rw [shapeCast_self]
  rfl

/-- The reset sum is the word of 0 in every row. -/
theorem pay2_apply (j : S512x1.Idx) : k0_pay2 (F := Ideal) j = Ideal.ofBits .f32 0x00000000#32 := by
  unfold k0_pay2
  rw [shapeCast_self]
  rfl

/-- The new maximum of row `p`. -/
theorem pay3_apply (x : Vec Ideal S512x3200 .f32) (mo : Vec Ideal S512x1 .f32) (p : Fin 512) :
    k0_pay3 (F := Ideal) x mo (ix2 p (0 : Fin 1)) = max (mo (ix2 p (0 : Fin 1))) (tileMax x p) := by
  unfold k0_pay3
  refine congrArg (max (mo (ix2 p (0 : Fin 1)))) ?_
  refine (Cert.LibKeepdims.shapeCast_a_a1_apply _ _ p (0 : Fin 1)).trans ?_
  exact Cert.LibRowReduce.multiReduction_max_row (φ := .f32) x _ _ _ _ p

/-- The stored maximum is the new maximum. -/
theorem pay5_eq (x : Vec Ideal S512x3200 .f32) (mo : Vec Ideal S512x1 .f32) :
    k0_pay5 (F := Ideal) x mo = k0_pay3 (F := Ideal) x mo := by
  unfold k0_pay5
  exact shapeCast_self _ _

/-- The new sum of row `p`. -/
theorem pay4_apply (x : Vec Ideal S512x3200 .f32) (mo lo : Vec Ideal S512x1 .f32) (p : Fin 512) :
    k0_pay4 (F := Ideal) x mo lo (ix2 p (0 : Fin 1))
      = lo (ix2 p (0 : Fin 1)) * Ideal.exp (mo (ix2 p (0 : Fin 1)) - k0_pay3 (F := Ideal) x mo (ix2 p (0 : Fin 1)))
        + ∑ o : Fin 3200, Ideal.exp (x (ix2 p o) - k0_pay3 (F := Ideal) x mo (ix2 p (0 : Fin 1))) := by
  unfold k0_pay4
  rw [shapeCast_self]
  refine congrArg (lo (ix2 p (0 : Fin 1)) * Ideal.exp (mo (ix2 p (0 : Fin 1)) - k0_pay3 (F := Ideal) x mo (ix2 p (0 : Fin 1))) + ·) ?_
  refine (Cert.LibKeepdims.shapeCast_a_a1_apply _ _ p (0 : Fin 1)).trans ?_
  refine (Cert.LibRowReduce.multiReduction_add_row (φ := .f32) _ _ _ _ _ p).trans ?_
  refine Finset.sum_congr rfl fun o _ => ?_
  exact congrArg (fun z => Ideal.exp (x (ix2 p o) - z)) (Cert.LibKeepdims.broadcastTo_a1_ab_apply _ _ p o)

/-- The block written out: maximum plus logarithm of the sum, row by row. -/
theorem pay6_apply (mv lv : Vec Ideal S512x1 .f32) (j : S512x1.Idx) :
    k0_pay6 (F := Ideal) mv lv j = mv j + Ideal.log (lv j) := by
  unfold k0_pay6
  rfl

end Cert.KernelIdeal.Payload

end
-- ==== Proof.LibOnlineLogSumExp.lean ====
/-
  Streaming (block-wise) log-sum-exp against the whole-row formula, on the extended reals. General: any row, any block
  width, any number of blocks.

  A row of logits is a function `g : ℕ → EReal` (entry `c` of the row; only finitely many entries are ever used).
  The kernel sweeps the row in `n + 1` blocks of `b` entries and keeps two numbers per row: the largest entry met
  so far (`runMax`) and the sum of `exp (entry - that maximum)` over the entries met so far (`runSum`), the latter
  rescaled by `exp (old maximum - new maximum)` whenever the maximum grows. The reference takes the maximum of the
  whole row (`rowMax`) and then the sum of `exp (entry - maximum)` over the whole row (`rowSum`).
  When every entry is a real number the two agree, and `x - (M + log S) = (x - M) - log S`
  (`online_logsumexp`): the log-probability of a class computed either way is the same extended real.
-/
import Idealize.ShloMosaic.PureOps.Ideal

noncomputable section

namespace Cert.LibOnlineLogSumExp

open Idealize.ShloMosaic

/-- The largest of the `b` entries of block `j` of the row, from `-∞`. -/
def blockMax (g : ℕ → EReal) (b j : ℕ) : EReal :=
  (Finset.univ : Finset (Fin b)).fold max ⊥ (fun o => g (b * j + o.val))

/-- The running maximum after blocks `0 … j`: each block's maximum joined to the one before, from `-∞`. -/
def runMax (g : ℕ → EReal) (b : ℕ) : ℕ → EReal
  | 0 => max ⊥ (blockMax g b 0)
  | j + 1 => max (runMax g b j) (blockMax g b (j + 1))

/-- The running sum after blocks `0 … j`: the sum before, rescaled from the old maximum to the new one, plus the
    block's own `exp (entry - new maximum)`; from `0`. -/
def runSum (g : ℕ → EReal) (b : ℕ) : ℕ → EReal
  | 0 => 0 * Ideal.exp (⊥ - runMax g b 0) + ∑ o : Fin b, Ideal.exp (g (b * 0 + o.val) - runMax g b 0)
  | j + 1 => runSum g b j * Ideal.exp (runMax g b j - runMax g b (j + 1))
      + ∑ o : Fin b, Ideal.exp (g (b * (j + 1) + o.val) - runMax g b (j + 1))

/-- The maximum of the first `N` entries of the row, joined once more to `-∞`. -/
def rowMax (g : ℕ → EReal) (N : ℕ) : EReal :=
  max ⊥ ((Finset.univ : Finset (Fin N)).fold max ⊥ (fun o => g o.val))

/-- The sum over the first `N` entries of `exp (entry - rowMax)`, from `0`. -/
def rowSum (g : ℕ → EReal) (N : ℕ) : EReal :=
  0 + ∑ o : Fin N, Ideal.exp (g o.val - rowMax g N)

/-- The block maximum is below a bound exactly when each of the block's entries is. -/
private theorem blockMax_le (g : ℕ → EReal) (b j : ℕ) (c : EReal) :
    blockMax g b j ≤ c ↔ ∀ o, o < b → g (b * j + o) ≤ c := by
  unfold blockMax
  rw [Finset.fold_max_le]
  constructor
  · rintro ⟨_, h⟩ o ho
    exact h ⟨o, ho⟩ (Finset.mem_univ _)
  · intro h
    exact ⟨bot_le, fun o _ => h o.val o.isLt⟩

/-- The running maximum after blocks `0 … j` is below a bound exactly when each of the first `b * (j + 1)`
    entries is: it is the least upper bound of those entries. -/
private theorem runMax_le (g : ℕ → EReal) (b : ℕ) (c : EReal) :
    ∀ j, runMax g b j ≤ c ↔ ∀ i, i < b * (j + 1) → g i ≤ c
  | 0 => by
    rw [runMax, max_le_iff, blockMax_le]
    simp
  | j + 1 => by
    rw [runMax, max_le_iff, runMax_le g b c j, blockMax_le]
    have hsplit : b * (j + 1 + 1) = b * (j + 1) + b := by ring
    constructor
    · rintro ⟨h1, h2⟩ i hi
      by_cases hlt : i < b * (j + 1)
      · exact h1 i hlt
      · have hi' : i = b * (j + 1) + (i - b * (j + 1)) := by omega
        rw [hi']
        apply h2
        omega
    · intro h
      refine ⟨fun i hi => h i ?_, fun o ho => h _ ?_⟩
      · omega
      · omega

/-- The whole-row maximum of the first `N` entries is their least upper bound too. -/
private theorem rowMax_le (g : ℕ → EReal) (N : ℕ) (c : EReal) :
    rowMax g N ≤ c ↔ ∀ i, i < N → g i ≤ c := by
  unfold rowMax
  rw [max_le_iff, Finset.fold_max_le]
  constructor
  · rintro ⟨_, _, h⟩ i hi
    exact h ⟨i, hi⟩ (Finset.mem_univ _)
  · intro h
    exact ⟨bot_le, bot_le, fun o _ => h o.val o.isLt⟩

/-- Two least upper bounds of the same entries: the running maximum after the last block is the row maximum. -/
private theorem runMax_eq_rowMax (g : ℕ → EReal) (b n : ℕ) : runMax g b n = rowMax g (b * (n + 1)) :=
  eq_of_forall_ge_iff fun c => by rw [runMax_le, rowMax_le]

/-- A block of real entries has a maximum below `+∞`. -/
private theorem blockMax_lt_top (g : ℕ → EReal) (gr : ℕ → ℝ) (hg : ∀ c, g c = (gr c : EReal)) (b j : ℕ) :
    blockMax g b j < ⊤ := by
  unfold blockMax
  rw [Finset.fold_max_lt]
  exact ⟨bot_lt_top, fun o _ => by rw [hg]; exact EReal.coe_lt_top _⟩

/-- So has every running maximum. -/
private theorem runMax_lt_top (g : ℕ → EReal) (gr : ℕ → ℝ) (hg : ∀ c, g c = (gr c : EReal)) (b : ℕ) :
    ∀ j, runMax g b j < ⊤
  | 0 => by
    rw [runMax]
    exact max_lt bot_lt_top (blockMax_lt_top g gr hg b 0)
  | j + 1 => by
    rw [runMax]
    exact max_lt (runMax_lt_top g gr hg b j) (blockMax_lt_top g gr hg b (j + 1))

/-- With real entries and `b ≥ 1` the running maximum is a real number: it is below `+∞` and at least entry `0`. -/
private theorem runMax_real (g : ℕ → EReal) (gr : ℕ → ℝ) (hg : ∀ c, g c = (gr c : EReal)) (b : ℕ) (hb : 0 < b)
    (j : ℕ) : ∃ M : ℝ, runMax g b j = (M : EReal) := by
  have hlt : runMax g b j < ⊤ := runMax_lt_top g gr hg b j
  have h0 : g 0 ≤ runMax g b j := (runMax_le g b _ j).1 le_rfl 0 (Nat.mul_pos hb (Nat.succ_pos j))
  have hbot : ⊥ < runMax g b j := lt_of_lt_of_le (by rw [hg]; exact EReal.bot_lt_coe _) h0
  exact ⟨(runMax g b j).toReal, (EReal.coe_toReal hlt.ne hbot.ne').symm⟩

/-- The coercion of a finite real sum is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running sum after blocks `0 … j` is the real sum of `exp (entry - running maximum)` over the first
    `b * (j + 1)` entries: rescaling by `exp (M j - M (j + 1))` moves every earlier term from the old maximum to
    the new one, since `exp (a - M) * exp (M - M') = exp (a - M')`. -/
private theorem runSum_eq (g : ℕ → EReal) (gr : ℕ → ℝ) (hg : ∀ c, g c = (gr c : EReal)) (b : ℕ) (M : ℕ → ℝ)
    (hM : ∀ j, runMax g b j = (M j : EReal)) :
    ∀ j, runSum g b j = ((∑ i ∈ Finset.range (b * (j + 1)), Real.exp (gr i - M j) : ℝ) : EReal)
  | 0 => by
    rw [runSum, hM 0, EReal.bot_sub, Ideal.exp_bot, mul_zero, zero_add]
    simp only [hg, ← EReal.coe_sub, Ideal.exp_coe]
    rw [← coe_sum]
    congr 1
    rw [Nat.zero_add, Nat.mul_one, ← Fin.sum_univ_eq_sum_range]
    simp
  | j + 1 => by
    rw [runSum, runSum_eq g gr hg b M hM j, hM j, hM (j + 1)]
    simp only [hg, ← EReal.coe_sub, Ideal.exp_coe]
    rw [← coe_sum, ← EReal.coe_mul, ← EReal.coe_add]
    congr 1
    have hsplit : b * (j + 1 + 1) = b * (j + 1) + b := by ring
    rw [hsplit, Finset.sum_range_add, Finset.sum_mul]
    congr 1
    · apply Finset.sum_congr rfl
      intro i _
      rw [← Real.exp_add]
      congr 1
      ring
    · exact Fin.sum_univ_eq_sum_range (fun o => Real.exp (gr (b * (j + 1) + o) - M (j + 1))) b

/-- The whole-row sum, once the row maximum is known to be the real `Mr`, is the same kind of real sum. -/
private theorem rowSum_eq (g : ℕ → EReal) (gr : ℕ → ℝ) (hg : ∀ c, g c = (gr c : EReal)) (N : ℕ) (Mr : ℝ)
    (hM : rowMax g N = (Mr : EReal)) :
    rowSum g N = ((∑ i ∈ Finset.range N, Real.exp (gr i - Mr) : ℝ) : EReal) := by
  rw [rowSum, hM, zero_add]
  simp only [hg, ← EReal.coe_sub, Ideal.exp_coe]
  rw [← coe_sum]
  congr 1
  exact Fin.sum_univ_eq_sum_range (fun i => Real.exp (gr i - Mr)) N

/-- For a row of real numbers swept in `n + 1` blocks of `b ≥ 1` entries: an entry minus the block-wise
    log-sum-exp is that entry's log-softmax as the whole-row formula spells it. -/
theorem online_logsumexp (g : ℕ → EReal) (b n : ℕ) (hb : 0 < b) (hfin : ∀ c, ∃ v : ℝ, g c = (v : EReal)) (x : EReal)
    (hx : ∃ v : ℝ, x = (v : EReal)) :
    x - (runMax g b n + Ideal.log (runSum g b n))
      = (x - rowMax g (b * (n + 1))) - Ideal.log (rowSum g (b * (n + 1))) := by
  choose gr hg using hfin
  obtain ⟨xr, rfl⟩ := hx
  choose M hM using runMax_real g gr hg b hb
  have hrow : rowMax g (b * (n + 1)) = (M n : EReal) := by rw [← runMax_eq_rowMax, hM]
  rw [rowSum_eq g gr hg _ (M n) hrow, hrow, runSum_eq g gr hg b M hM n, hM n]
  have hpos : 0 < ∑ i ∈ Finset.range (b * (n + 1)), Real.exp (gr i - M n) :=
    Finset.sum_pos (fun i _ => Real.exp_pos _)
      (Finset.nonempty_range_iff.2 (Nat.mul_pos hb (Nat.succ_pos n)).ne')
  rw [Ideal.log_coe, if_neg (not_le.2 hpos), ← EReal.coe_add, ← EReal.coe_sub, ← EReal.coe_sub, ← EReal.coe_sub]
  congr 1
  ring

end Cert.LibOnlineLogSumExp

end
-- ==== Proof.KernelStep.lean ====
/-
  One column tile's update of a row's running maximum and running sum, in the words of the mathematics: if the
  tile's row `p` is block `j` of a row `g` (3200 entries per block), then the first tile produces `runMax g 3200 0`
  and `runSum g 3200 0` from the reset values, a later tile produces the values of block `j + 1` from those of
  block `j`, and the block written out is `runMax + log runSum`.
-/
import proofs.«164738_j86629490360769_2_alg».proof.Proof.KernelPayload
import proofs.«164738_j86629490360769_2_alg».proof.Proof.LibOnlineLogSumExp

noncomputable section

open Idealize.ShloMosaic Idealize.ShloMosaic.TcCoe Idealize.ShloMosaic.ValueIdx

namespace Cert.KernelIdeal.Step

open Cert.KernelIdeal Cert.KernelIdeal.Gen Cert.KernelIdeal.Payload Cert.LibOnlineLogSumExp

/-- The word 0xFF800000 is -∞. -/
theorem negInf : Ideal.ofBits .f32 0xFF800000#32 = (⊥ : EReal) := by simp [Ideal.ofBits, Ideal.ieee]

/-- The tile's row maximum is the block's maximum. -/
theorem tileMax_eq (x : Vec Ideal S512x3200 .f32) (p : Fin 512) (g : ℕ → EReal) (j : ℕ)
    (hx : ∀ o : Fin 3200, x (ix2 p o) = g (3200 * j + o.val)) : tileMax x p = blockMax g 3200 j := by
  unfold tileMax blockMax
  rw [negInf]
  exact congrArg (fun f => (Finset.univ : Finset (Fin 3200)).fold max ⊥ f) (funext hx)

/-- First tile: the maximum. -/
theorem first_max (x : Vec Ideal S512x3200 .f32) (p : Fin 512) (g : ℕ → EReal)
    (hx : ∀ o : Fin 3200, x (ix2 p o) = g (3200 * 0 + o.val)) :
    k0_pay5 (F := Ideal) x (k0_pay1 (F := Ideal)) (ix2 p (0 : Fin 1)) = runMax g 3200 0 := by
  rw [pay5_eq, pay3_apply, pay1_apply, negInf, tileMax_eq x p g 0 hx]
  rfl

/-- First tile: the sum. -/
theorem first_sum (x : Vec Ideal S512x3200 .f32) (p : Fin 512) (g : ℕ → EReal)
    (hx : ∀ o : Fin 3200, x (ix2 p o) = g (3200 * 0 + o.val)) :
    k0_pay4 (F := Ideal) x (k0_pay1 (F := Ideal)) (k0_pay2 (F := Ideal)) (ix2 p (0 : Fin 1)) = runSum g 3200 0 := by
  have hM : k0_pay3 (F := Ideal) x (k0_pay1 (F := Ideal)) (ix2 p (0 : Fin 1)) = runMax g 3200 0 := by
    rw [← pay5_eq]; exact first_max x p g hx
  rw [pay4_apply, hM, pay2_apply, pay1_apply, Ideal.ofBits_zero_f32, negInf]
  simp only [hx]
  rfl

/-- A later tile: the maximum. -/
theorem next_max (x : Vec Ideal S512x3200 .f32) (mo : Vec Ideal S512x1 .f32) (p : Fin 512) (g : ℕ → EReal) (j : ℕ)
    (hx : ∀ o : Fin 3200, x (ix2 p o) = g (3200 * (j + 1) + o.val))
    (hm : mo (ix2 p (0 : Fin 1)) = runMax g 3200 j) :
    k0_pay5 (F := Ideal) x mo (ix2 p (0 : Fin 1)) = runMax g 3200 (j + 1) := by
  rw [pay5_eq, pay3_apply, hm, tileMax_eq x p g (j + 1) hx]
  rfl

/-- A later tile: the sum. -/
theorem next_sum (x : Vec Ideal S512x3200 .f32) (mo lo : Vec Ideal S512x1 .f32) (p : Fin 512) (g : ℕ → EReal) (j : ℕ)
    (hx : ∀ o : Fin 3200, x (ix2 p o) = g (3200 * (j + 1) + o.val))
    (hm : mo (ix2 p (0 : Fin 1)) = runMax g 3200 j) (hl : lo (ix2 p (0 : Fin 1)) = runSum g 3200 j) :
    k0_pay4 (F := Ideal) x mo lo (ix2 p (0 : Fin 1)) = runSum g 3200 (j + 1) := by
  have hM : k0_pay3 (F := Ideal) x mo (ix2 p (0 : Fin 1)) = runMax g 3200 (j + 1) := by
    rw [← pay5_eq]; exact next_max x mo p g j hx hm
  rw [pay4_apply, hM, hm, hl]
  simp only [hx]
  rfl

/-- The block written out on the last tile. -/
theorem written (x : Vec Ideal S512x3200 .f32) (mo lo : Vec Ideal S512x1 .f32) (p : Fin 512) (g : ℕ → EReal) (j : ℕ)
    (hx : ∀ o : Fin 3200, x (ix2 p o) = g (3200 * (j + 1) + o.val))
    (hm : mo (ix2 p (0 : Fin 1)) = runMax g 3200 j) (hl : lo (ix2 p (0 : Fin 1)) = runSum g 3200 j) :
    k0_pay6 (F := Ideal) (k0_pay5 (F := Ideal) x mo) (k0_pay4 (F := Ideal) x mo lo) (ix2 p (0 : Fin 1))
      = runMax g 3200 (j + 1) + Ideal.log (runSum g 3200 (j + 1)) := by
  rw [pay6_apply, next_max x mo p g j hx hm, next_sum x mo lo p g j hx hm hl]

end Cert.KernelIdeal.Step

end
-- ==== Proof.Rows.lean ====
/-
  A row of the 4096 × 32000 logits matrix as a function of a natural column number: row `r`, column `c`, each
  taken modulo its extent so that no bound proof sits inside a term. Below the extents this is the matrix entry.
-/
import Idealize.ShloMosaic.PureOps.Ideal
import Idealize.ShloMosaic.Lib.ValueIdx

noncomputable section

namespace Cert.Rows

open Idealize.ShloMosaic Idealize.ShloMosaic.ValueIdx

/-- Row `r` of the matrix, as a function of the column number. -/
def rowOf (X : (⟨2, ![4096, 32000]⟩ : Shape).Idx → EReal) (r : ℕ) : ℕ → EReal :=
  fun c => X (ix2 (⟨r % 4096, Nat.mod_lt _ (by norm_num)⟩ : Fin 4096) (⟨c % 32000, Nat.mod_lt _ (by norm_num)⟩ : Fin 32000))

/-- Below the extents the reading is the entry. -/
theorem rowOf_apply (X : (⟨2, ![4096, 32000]⟩ : Shape).Idx → EReal) (r : Fin 4096) (c : Fin 32000) :
    rowOf X r.val c.val = X (ix2 r c) := by
  unfold rowOf
  congr 1
  have hr := r.isLt
  have hc := c.isLt
  funext a
  match a with
  | ⟨0, _⟩ => exact Fin.ext (Nat.mod_eq_of_lt hr)
  | ⟨1, _⟩ => exact Fin.ext (Nat.mod_eq_of_lt hc)

end Cert.Rows

end
-- ==== Proof.KernelInvariant.lean ====
/-
  What the kernel's two scratch buffers hold after each grid point. The grid has 8 row tiles of 512 rows and, inside
  each, 10 column tiles of 3200 columns, visited in that order: point `t` is row tile `t / 10`, column tile `t % 10`.
  After point `t`, row `p` of the first buffer is the running maximum and row `p` of the second the running sum of
  matrix row `512 * (t / 10) + p` over its first `t % 10 + 1` blocks of 3200 columns; at a last column tile the output
  block holds maximum + log(sum). By induction on the point: a first column tile starts from the reset values, every
  other tile from what the point before left.
-/
import proofs.«164738_j86629490360769_2_alg».proof.Proof.Gen.KernelIdeal.Frame
import proofs.«164738_j86629490360769_2_alg».proof.Proof.KernelPieces
import proofs.«164738_j86629490360769_2_alg».proof.Proof.KernelStep
import proofs.«164738_j86629490360769_2_alg».proof.Proof.Rows
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Inv

open Cert.KernelIdeal Cert.KernelIdeal.Gen Cert.LibOnlineLogSumExp Cert.Rows

variable (m : (ℓ : Loc nD τ sig) → Buf (Elt Ideal) ℓ)

/-- The logits matrix as the region finds it. -/
abbrev X (c : Dev nD) : S4096x32000.Idx → EReal := V m c main_arg0

/-- The input window's block indices at point `t`: row tile `t / 10`, column tile `t % 10`. -/
theorem idx_facts : ∀ t : Fin cfg0.N, win0_0.index t (0 : Fin 2) = t.val / 10 ∧ win0_0.index t (1 : Fin 2) = t.val % 10 :=
  (by decide +kernel : ∀ t : Fin grid0.N, _)

/-- Entry `(p, o)` of the input block at point `t` is entry `3200 * (t % 10) + o` of matrix row `512 * (t / 10) + p`. -/
theorem iblk_apply (c : Dev nD) (t : Fin cfg0.N) (p : Fin 512) (o : Fin 3200) :
    (iblk m c 0 t : Vec Ideal S512x3200 .f32) (ix2 p o)
      = rowOf (X m c) (512 * (t.val / 10) + p.val) (3200 * (t.val % 10) + o.val) := by
  obtain ⟨e0, e1⟩ := idx_facts t
  have hN : t.val < 80 := lt_of_lt_of_eq t.isLt (show cfg0.N = 80 from N_0)
  have hp := p.isLt
  have ho := o.isLt
  unfold iblk rowOf
  rw [View.read_apply]
  show V m c main_arg0 _ = V m c main_arg0 _
  congr 1
  funext a
  apply Fin.ext
  match a with
  | ⟨0, _⟩ =>
    show win0_0.index t (0 : Fin 2) * 512 + 1 * p.val = (512 * (t.val / 10) + p.val) % 4096
    rw [e0]; omega
  | ⟨1, _⟩ =>
    show win0_0.index t (1 : Fin 2) * 3200 + 1 * o.val = (3200 * (t.val % 10) + o.val) % 32000
    rw [e1]; omega

/-- The statement carried through the grid, for one row `p` of the tile. -/
def Holds (c : Dev nD) (n : ℕ) (h : n < cfg0.N) (p : Fin 512) : Prop :=
  (outsAt0 m c n h).2.1 (ix2 p (0 : Fin 1)) = runMax (rowOf (X m c) (512 * (n / 10) + p.val)) 3200 (n % 10)
  ∧ (outsAt0 m c n h).2.2 (ix2 p (0 : Fin 1)) = runSum (rowOf (X m c) (512 * (n / 10) + p.val)) 3200 (n % 10)
  ∧ (n % 10 = 9 → (outsAt0 m c n h).1 (ix2 p (0 : Fin 1))
      = runMax (rowOf (X m c) (512 * (n / 10) + p.val)) 3200 (n % 10)
        + Ideal.log (runSum (rowOf (X m c) (512 * (n / 10) + p.val)) 3200 (n % 10)))

/-- A first column tile. -/
theorem holds_first (c : Dev nD) (t : Fin cfg0.N) (h0 : t.val % 10 = 0) (p : Fin 512) : Holds m c t.val t.isLt p := by
  have h1 : ¬t.val % 10 = 9 := by omega
  have hx : ∀ o : Fin 3200, (iblk m c 0 t : Vec Ideal S512x3200 .f32) (ix2 p o)
      = rowOf (X m c) (512 * (t.val / 10) + p.val) (3200 * 0 + o.val) := fun o => by rw [iblk_apply, h0]
  unfold Holds
  rw [outsAt0_A m c t h0 h1]
  dsimp only
  rw [Pieces.max_A, Pieces.sum_A]
  exact ⟨(Step.first_max _ p _ hx).trans (by rw [h0]), (Step.first_sum _ p _ hx).trans (by rw [h0]),
    fun h9 => absurd h9 h1⟩

theorem holds (c : Dev nD) : ∀ (n : ℕ) (h : n < cfg0.N) (p : Fin 512), Holds m c n h p := by
  intro n
  induction n with
  | zero => intro h p; exact holds_first m c ⟨0, h⟩ rfl p
  | succ n ih =>
    intro h p
    have hN : n + 1 < 80 := lt_of_lt_of_eq h (show cfg0.N = 80 from N_0)
    by_cases h0 : (n + 1) % 10 = 0
    · exact holds_first m c ⟨n + 1, h⟩ h0 p
    · have e1 : (n + 1) / 10 = n / 10 := by omega
      have e2 : (n + 1) % 10 = n % 10 + 1 := by omega
      have hB0 : ¬(⟨n + 1, h⟩ : Fin cfg0.N).val % 10 = 0 := by dsimp only; omega
      obtain ⟨ihm, ihl, -⟩ := ih (Nat.lt_of_succ_lt h) p
      have hx : ∀ o : Fin 3200, (iblk m c 0 ⟨n + 1, h⟩ : Vec Ideal S512x3200 .f32) (ix2 p o)
          = rowOf (X m c) (512 * (n / 10) + p.val) (3200 * (n % 10 + 1) + o.val) := fun o => by
        rw [iblk_apply]; dsimp only; rw [e1, e2]
      unfold Holds
      rw [e1, e2]
      by_cases h1 : (n + 1) % 10 = 9
      · have hC1 : (⟨n + 1, h⟩ : Fin cfg0.N).val % 10 = 9 := by dsimp only; omega
        rw [outsAt0_C m c ⟨n + 1, h⟩ hB0 hC1]
        dsimp only
        rw [Pieces.max_C, Pieces.sum_C, Pieces.out_C]
        exact ⟨Step.next_max _ _ p _ _ hx ihm, Step.next_sum _ _ _ p _ _ hx ihm ihl,
          fun _ => Step.written _ _ _ p _ _ hx ihm ihl⟩
      · have hB1 : ¬(⟨n + 1, h⟩ : Fin cfg0.N).val % 10 = 9 := by dsimp only; omega
        rw [outsAt0_B m c ⟨n + 1, h⟩ hB0 hB1]
        dsimp only
        rw [Pieces.max_B, Pieces.sum_B]
        exact ⟨Step.next_max _ _ p _ _ hx ihm, Step.next_sum _ _ _ p _ _ hx ihm ihl,
          fun h9 => absurd h9 (by omega)⟩

end Cert.KernelIdeal.Inv

end
-- ==== Proof.KernelValue.lean ====
/-
  The kernel's result array. The output window is written back only after a last column tile, and then its block
  holds, for each of the tile's 512 rows, maximum + log(sum) of the whole matrix row. The eight row tiles' blocks tile
  the 4096 × 1 array, so after the run entry `(r, 0)` of the array is the log-sum-exp of matrix row `r`, computed
  block by block.
-/
import proofs.«164738_j86629490360769_2_alg».proof.Proof.KernelInvariant
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Lse

open Cert.KernelIdeal Cert.KernelIdeal.Gen Cert.LibOnlineLogSumExp Cert.Rows Cert.KernelIdeal.Inv

variable (m : (ℓ : Loc nD τ sig) → Buf (Elt Ideal) ℓ)

/-- The log-sum-exp of matrix row `r`, swept in ten blocks of 3200 columns. -/
def lseRow (X : S4096x32000.Idx → EReal) (r : ℕ) : EReal :=
  runMax (rowOf X r) 3200 9 + Ideal.log (runSum (rowOf X r) 3200 9)

/-- The 4096 × 1 column of the rows' log-sum-exps. -/
def lseCol (X : S4096x32000.Idx → EReal) : S4096x1.Idx → EReal := fun i => lseRow X (i 0).val

/-- The output window's block indices at point `t`: row tile `t / 10`, the one column. -/
theorem idx_facts1 : ∀ t : Fin cfg0.N, win0_1.index t (0 : Fin 2) = t.val / 10 ∧ win0_1.index t (1 : Fin 2) = 0 :=
  (by decide +kernel : ∀ t : Fin grid0.N, _)

/-- After a last column tile, row `y` of the output block is the log-sum-exp of matrix row `512 * (t / 10) + y`. -/
theorem out_at (c : Dev nD) (t : Fin cfg0.N) (h9 : t.val % 10 = 9) (y : S512x1.Idx) :
    (outsAt0 m c t.val t.isLt).1 y = lseRow (X m c) (512 * (t.val / 10) + (y 0).val) := by
  have ey : y = ix2 (y 0) (y 1) := eq_ix2 y
  have h1 : (y 1).val < 1 := idx2_lt1 y
  have hu : y 1 = (0 : Fin 1) := Fin.ext (by show (y 1).val = 0; omega)
  have H := (holds m c t.val t.isLt (y 0)).2.2 h9
  rw [h9] at H
  rw [ey, hu]
  exact H

/-- What a write-back writes is the block of `lseCol`. -/
theorem flushed_eq (c : Dev nD) (t : Fin cfg0.N) (hf : (cfg0.win 1).flush t = true) :
    (dats m 0 c).flushed 1 t = ((cfg0.win 1).blk t).view.read (Elt Ideal) (lseCol (X m c)) := by
  have h9 : t.val % 10 = 9 := (flush0_1 t).mp hf
  obtain ⟨e0, e1⟩ := idx_facts1 t
  show (cfg0.win 1).cut (grid0.coords t) ((dats m 0 c).after 1 t) = _
  rw [after0_1]
  funext y
  show (outsAt0 m c t.val t.isLt).1 y = lseCol (X m c) (((cfg0.win 1).blk t).view.emb y)
  refine (out_at m c t h9 y).trans ?_
  have hrow : ((((cfg0.win 1).blk t).view.emb y) 0).val = 512 * (t.val / 10) + (y 0).val := by
    show win0_1.index t (0 : Fin 2) * 512 + 1 * (y 0).val = _
    rw [e0]; omega
  unfold lseCol
  rw [hrow]

/-- An index of the array is in point `t`'s block iff each coordinate is in the block's range. -/
theorem mem_blk (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v3).slice (win0_1.rect t)).set ↔ _
  rw [View.set_slice_whole, Rect.mem_set_unit]
  exact Iff.rfl

/-- Every row of the array is written back by the last column tile of its row tile. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  have hN : cfg0.N = 80 := N_0
  let t : Fin cfg0.N := ⟨10 * ((i 0).val / 512) + 9, by rw [hN]; omega⟩
  have ht : t.val = 10 * ((i 0).val / 512) + 9 := rfl
  obtain ⟨e0, e1⟩ := idx_facts1 t
  refine ⟨t, (flush0_1 t).mpr (by rw [ht]; omega), ?_⟩
  rw [mem_blk]
  intro a
  match a with
  | ⟨0, _⟩ =>
    show win0_1.index t (0 : Fin 2) * 512 ≤ (i 0).val ∧ (i 0).val < win0_1.index t (0 : Fin 2) * 512 + 512
    rw [e0, ht]; omega
  | ⟨1, _⟩ =>
    show win0_1.index t (1 : Fin 2) * 1 ≤ (i 1).val ∧ (i 1).val < win0_1.index t (1 : Fin 2) * 1 + 1
    rw [e1]; omega

/-- The result array after the run: the column of log-sum-exps. -/
theorem final (c : Dev nD) : (dats m 0 c).arrAt 1 cfg0.N = lseCol (X m c) :=
  (dats m 0 c).arrAt_eq_of_cover 1 (lseCol (X m c)) (flushed_eq m c) cover

end Cert.KernelIdeal.Lse

end
-- ==== Proof.KernelHost.lean ====
/-
  The host operations around the kernel. Before it, the class index of each row is made non-negative (an index below
  zero has 32000 added), the logit at that column is gathered from each row, and a row whose index is outside
  [0, 31999] gets the not-a-number word instead (`pick`). After it, the log-sum-exp column is subtracted, the 4096
  differences are summed, divided by 4096 and negated (`lossTail`). The run of the whole program ends with its result
  at `lossTail (pick - logsumexp)`.
-/
import proofs.«164738_j86629490360769_2_alg».proof.Proof.KernelValue
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.HostSide

open Cert.KernelIdeal Cert.KernelIdeal.Gen Cert.KernelIdeal.Inv Cert.KernelIdeal.Lse

section Terms
variable {F : FTy → Type} [FloatOps F]

/-- The class indices as a column, an index below zero moved up by 32000, as start indices of the gather. -/
def takeIdx (t : IVec S4096 32) : IVec S4096x1x1 32 :=
  shapeCast S4096x1x1
    (select (cmpi .slt (broadcastInDim S4096x1 ![0] bcast_S4096_S4096x1_0 t) (broadcastInDim S4096x1 ![] bcast_S_S4096x1 (constantI S_ 32 0#32)))
      (addi (broadcastInDim S4096x1 ![0] bcast_S4096_S4096x1_0 t) (broadcastInDim S4096x1 ![] bcast_S_S4096x1 (constantI S_ 32 32000#32)))
      (broadcastInDim S4096x1 ![0] bcast_S4096_S4096x1_0 t))
    shapeCasts_S4096x1_S4096x1x1

/-- Per row, whether the moved index lies in [0, 31999]. -/
def takeMask (t : IVec S4096 32) : IVec S4096x1 1 :=
  Host.reduce IntOp.andi
    (andi (cmpi .sge (takeIdx t) (broadcastInDim S4096x1x1 ![] bcast_S_S4096x1x1 (constantI S_ 32 0#32)))
      (cmpi .sle (takeIdx t) (broadcastInDim S4096x1x1 ![0, 1, 2] bcast_S1x1x1_S4096x1x1_0_1_2
        (broadcastInDim S1x1x1 ![2] bcast_S1_S1x1x1_2 (constantI S1 32 31999#32)))))
    (constantI S_ 1 1#1) reducesTo_S4096x1x1_S4096x1_d2 h_S_

/-- Per row, the matrix entry at the row's class index, or the not-a-number word where the index is out of range. -/
def pick (x : FVec F S4096x32000 .f32) (t : IVec S4096 32) : FVec F S4096x1 .f32 :=
  select (takeMask t) (Host.gather gather_S4096x32000_S4096x1x1_S4096x1_n_1_0_0_1_2_11 x (takeIdx t))
    (broadcastInDim S4096x1 ![] bcast_S_S4096x1 (constant S_ .f32 0x7FC00000#32))

/-- The mean of a vector of 4096 numbers, negated: summed from the zero word, divided by the word of 4096, negated. -/
def lossTail (v : FVec F S4096 .f32) : FVec F S_ .f32 :=
  Host.negf (Host.divf (Host.reduceAdd v (constant S_ .f32 0x00000000#32) reducesTo_S4096_S_d0 h_S_) (constant S_ .f32 0x45800000#32))

end Terms

variable (m : (ℓ : Loc nD τ sig) → Buf (Elt Ideal) ℓ) (ρ : Dev nD → PrngReg)

set_option maxRecDepth 8192 in
set_option maxHeartbeats 2000000 in
/-- The picked logits as the region finds them: the host operations before it, read back. -/
theorem V_picked (c : Dev nD) :
    (V m c main_v2 : S4096.Idx → EReal)
      = shapeCast S4096 (pick (F := Ideal) (m ((c : Thread nD τ).loc main_arg0)) (m ((c : Thread nD τ).loc main_arg1))) shapeCasts_S4096x1_S4096 := by
  dsimp only [Gen.V, Gen.V0]
  simp only [Gen.hostOps0, Gen.hostOps0_1, Gen.hostOps0_2, List.flatten_cons, List.flatten_nil, List.append_nil, List.cons_append,
    List.nil_append]
  after_results_simp <;> rfl

end Cert.KernelIdeal.HostSide

end
-- ==== Proof.KernelRun.lean ====
/-
  The run of the idealized kernel program, read back: every execution ends with the result at
  `lossTail (pick x t - logsumexp x)`, the two arguments unchanged. The host lines after the kernel read the picked
  logits as the region found them and the kernel's result array as the run left it.
-/
import proofs.«164738_j86629490360769_2_alg».proof.Proof.KernelHost
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.HostSide

open Cert.KernelIdeal Cert.KernelIdeal.Gen Cert.KernelIdeal.Inv Cert.KernelIdeal.Lse

variable (m : (ℓ : Loc nD τ sig) → Buf (Elt Ideal) ℓ) (ρ : Dev nD → PrngReg)

/-- The result buffer after the host lines that follow the kernel. -/
theorem tail_result (c : Dev nD) :
    (Pipeline.afterTail₀ cfgs (dats m) 0 (V0 m) [hostOps1] c main_v8 : S_.Idx → EReal)
      = lossTail (F := Ideal) (subf (V m c main_v2 : S4096.Idx → EReal)
          (shapeCast S4096 ((dats m 0 c).arrAt 1 cfg0.N) shapeCasts_S4096x1_S4096)) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v2)
      = V0 m c (Proc.devRef .tc main_v2) :=
    Pipeline.withArrays_of_ne _ c (V0 m c) _ main_v2 (by exact (by decide : ∀ w, Pipeline.arrRef spec0 w ≠ main_v2))
  have e3 : Pipeline.withArrays (cfgs 0).spec c (V0 m c) (fun w => (dats m 0 c).arrAt w (cfgs 0).N) (Proc.devRef .tc main_v3)
      = (dats m 0 c).arrAt 1 cfg0.N :=
    Pipeline.withArrays_arr spec0 launch0.win.arr_inj c _ _ 1
  rw [e2, e3]
  rfl

/-- THE RUN of the idealized kernel program: the result at `lossTail (pick x t - logsumexp x)`, the arguments kept. -/
theorem run : θ_run defs (onTc (τ := τ) (main (F := Ideal))) ⟨m, fun _ => 0, ρ⟩ fun r => ∀ c : Dev nD,
      (r.2.mem ((c.tc : Thread nD τ).loc main_v8) : S_.Idx → EReal)
        = lossTail (F := Ideal) (subf
            (shapeCast S4096 (pick (F := Ideal) (m ((c.tc : Thread nD τ).loc main_arg0)) (m ((c.tc : Thread nD τ).loc main_arg1))) shapeCasts_S4096x1_S4096)
            (shapeCast S4096 (lseCol (m ((c.tc : Thread nD τ).loc main_arg0))) shapeCasts_S4096x1_S4096))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans
        ((tail_result m c).trans (by rw [V_picked m c, final m c, show X m c = m ((c.tc : Thread nD τ).loc main_arg0) from V_main_arg0 m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.HostSide

end
-- ==== Proof.LibTypedRefs.lean ====
/-
  A typed tensor reference moves a value between the value's own type and the type its buffer is declared with; the two
  moves at one buffer undo each other, whatever the proofs the two typed references carry.
-/
import Idealize.ShloMosaic.Lib.StableHlo

noncomputable section

namespace Cert.LibTypedRefs

open Idealize.ShloMosaic Idealize.ShloMosaic.StableHlo

/-- Reading back through a typed reference what was written through a typed reference to the same buffer gives the value
    written. -/
theorem ofBuf_toBuf {sig : RefSig} {Val : EltTy → Type} {T : BufTy} (r : Ref sig .tc) (h h' : r.ty = T)
    (a a' : r.space ≠ .host) (b b' : r.isScoped = false) (u : T.Contents Val) :
    (TRef.of r h a b).ofBuf ((TRef.of r h' a' b').toBuf u) = u := by
  subst h; rfl

end Cert.LibTypedRefs

end
-- ==== Proof.RefRun.lean ====
/-
  The reference program's run, read back. Its @main is a straight line of 44 host operations (the log-softmax and the
  gather along the class axis are functions it calls; their operations stand in the calls' places). Every execution
  ends with the result at the composition of those operations applied to the two arguments:
  `lossTail (pick (logSoftmax x) t)` — the row-wise log-softmax of the logits, the entry at each row's class index
  (or the not-a-number word where the index is out of range), then minus the mean of those 4096 numbers.
-/
import proofs.«164738_j86629490360769_2_alg».proof.ReferenceIdeal
import proofs.«164738_j86629490360769_2_alg».proof.Proof.Gen.ReferenceIdeal
import proofs.«164738_j86629490360769_2_alg».proof.Proof.LibTypedRefs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 44 operations, in order. -/
abbrev ops : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf,
    unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x32000, .f32⟩) main_v0) (TRef.of (T := ⟨S4096x1x1, .i32⟩) main_call1_v5) (TRef.of (T := ⟨S4096x1, .f32⟩) main_call1_v13) (fun x i => Host.gather gather_S4096x32000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select,
    reshape main_v2 main_v3 rfl shapeCasts_S4096x1_S4096,
    nullary main_cst (constant S_ .f32 0x00000000#32),
    binary main_v3 main_cst main_v4 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_0 (constant S_ .f32 0x45800000#32),
    binary main_v4 main_cst_0 main_v5 (Host.divf : (⟨S_, .f32⟩ : BufTy).Contents (Elt F) → (⟨S_, .f32⟩ : BufTy).Contents (Elt F) → (⟨S_, .f32⟩ : BufTy).Contents (Elt F)),
    unary main_v5 main_v6 (Host.negf : (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., nullary_bufs_sub .., binary_bufs_sub .., unary_bufs_sub ..⟩

/-- The row-wise log-softmax as the host spells it: the row maximum (joined once more to -∞), the shift by it, the
    logarithm of the row sum of exponentials, the second shift. -/
def logSoftmax (x : FVec F S4096x32000 .f32) : FVec F S4096x32000 .f32 :=
  subf
    (subf x (broadcastInDim S4096x32000 ![0, 1] bcast_S4096x1_S4096x32000_0_1 (broadcastInDim S4096x1 ![0] bcast_S4096_S4096x1_0
      (maximumf (broadcastInDim S4096 ![] bcast_S_S4096 (constant S_ .f32 0xFF800000#32))
        (Host.reduce FloatOps.maximumf x (constant S_ .f32 0xFF800000#32) reducesTo_S4096x32000_S4096_d1 h_S_)))))
    (broadcastInDim S4096x32000 ![0, 1] bcast_S4096x1_S4096x32000_0_1 (Host.log (broadcastInDim S4096x1 ![0] bcast_S4096_S4096x1_0
      (Host.reduceAdd
        (Host.exp (subf x (broadcastInDim S4096x32000 ![0, 1] bcast_S4096x1_S4096x32000_0_1 (broadcastInDim S4096x1 ![0] bcast_S4096_S4096x1_0
          (maximumf (broadcastInDim S4096 ![] bcast_S_S4096 (constant S_ .f32 0xFF800000#32))
            (Host.reduce FloatOps.maximumf x (constant S_ .f32 0xFF800000#32) reducesTo_S4096x32000_S4096_d1 h_S_))))))
        (constant S_ .f32 0x00000000#32) reducesTo_S4096x32000_S4096_d1 h_S_))))

/-- The class indices as a column, an index below zero moved up by 32000, as start indices of the gather. -/
def takeIdx (t : IVec S4096 32) : IVec S4096x1x1 32 :=
  shapeCast S4096x1x1
    (select (cmpi .slt (broadcastInDim S4096x1 ![0] bcast_S4096_S4096x1_0 t) (broadcastInDim S4096x1 ![] bcast_S_S4096x1 (constantI S_ 32 0#32)))
      (addi (broadcastInDim S4096x1 ![0] bcast_S4096_S4096x1_0 t) (broadcastInDim S4096x1 ![] bcast_S_S4096x1 (constantI S_ 32 32000#32)))
      (broadcastInDim S4096x1 ![0] bcast_S4096_S4096x1_0 t))
    shapeCasts_S4096x1_S4096x1x1

/-- Per row, whether the moved index lies in [0, 31999]. -/
def takeMask (t : IVec S4096 32) : IVec S4096x1 1 :=
  Host.reduce IntOp.andi
    (andi (cmpi .sge (takeIdx t) (broadcastInDim S4096x1x1 ![] bcast_S_S4096x1x1 (constantI S_ 32 0#32)))
      (cmpi .sle (takeIdx t) (broadcastInDim S4096x1x1 ![0, 1, 2] bcast_S1x1x1_S4096x1x1_0_1_2
        (broadcastInDim S1x1x1 ![2] bcast_S1_S1x1x1_2 (constantI S1 32 31999#32)))))
    (constantI S_ 1 1#1) reducesTo_S4096x1x1_S4096x1_d2 h_S_

/-- Per row, the matrix entry at the row's class index, or the not-a-number word where the index is out of range. -/
def pick (x : FVec F S4096x32000 .f32) (t : IVec S4096 32) : FVec F S4096x1 .f32 :=
  select (takeMask t) (Host.gather gather_S4096x32000_S4096x1x1_S4096x1_n_1_0_0_1_2_11 x (takeIdx t))
    (broadcastInDim S4096x1 ![] bcast_S_S4096x1 (constant S_ .f32 0x7FC00000#32))

/-- The mean of a vector of 4096 numbers, negated. -/
def lossTail (v : FVec F S4096 .f32) : FVec F S_ .f32 :=
  Host.negf (Host.divf (Host.reduceAdd v (constant S_ .f32 0x00000000#32) reducesTo_S4096_S_d0 h_S_) (constant S_ .f32 0x45800000#32))

set_option maxRecDepth 16384 in
set_option maxHeartbeats 4000000 in
/-- On every device, from any memory with zero counters: every weakly fair execution of @main terminates with the
    result at `lossTail (pick (logSoftmax x) t)` of the arguments `x`, `t`, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = lossTail (shapeCast S4096 (pick (logSoftmax (m ((c.tc : Thread nD τ).loc main_arg0))) (m ((c.tc : Thread nD τ).loc main_arg1))) shapeCasts_S4096x1_S4096)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (by after_results_simp <;> (try simp only [Cert.LibTypedRefs.ofBuf_toBuf]) <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HandRun

end
-- ==== Proof.Finite.lean ====
/-
  The precondition read back. It says that the conjunction, over all 4096 × 32000 entries, of "|entry| < +∞" is true;
  so every entry is neither +∞ nor -∞: a real number.
-/
import proofs.«164738_j86629490360769_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- Under the precondition every entry of the matrix is a real number. -/
theorem real_of_pre [Cert.Pre_finite_inputs.Facts] (x : FVec Ideal Cert.Pre_finite_inputs.S4096x32000 .f32)
    (t : IVec Cert.Pre_finite_inputs.S4096 32)
    (h : Cert.Pre_finite_inputs.fn (F := Ideal) x t = fun _ => 1#1) (i : Cert.Pre_finite_inputs.S4096x32000.Idx) :
    ∃ v : ℝ, x i = (v : EReal) := by
  have h0 := congrFun h ix0
  dsimp only [Cert.Pre_finite_inputs.fn] at h0
  haveI : Subsingleton Cert.Pre_finite_inputs.S_.Idx := ⟨fun a b => funext fun d => d.elim0⟩
  have hi := Host.reduce_andi_all _ _ _ _ _ h0 i
  have hc : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hc
  generalize x i = y at hc ⊢
  induction y using EReal.rec with
  | bot => exfalso; revert hc; simp [Ideal.cmp]
  | coe v => exact ⟨v, rfl⟩
  | top => exfalso; revert hc; simp [Ideal.cmp]

end Cert.Finite

end
-- ==== Proof.LibRowColumn.lean ====
/-
  A one-column matrix read as a vector or as a one-row matrix, at an index.

  A column [a, 1] cast to the vector [a] keeps the row-major position, so entry i of the result is the column's entry
  (i, 0); the same column transposed to the row [1, a] reads, at (u, k), the column's entry (k, 0), whatever the unit
  coordinate u. General in the extent a and in the element type.
-/
import Idealize.ShloMosaic.Lib.Pipeline.Value
import Idealize.ShloMosaic.Lib.ValueIdx
import Idealize.ShloMosaic.Lib.ValueLayout

noncomputable section

namespace Cert.LibRowColumn

open Idealize.ShloMosaic Idealize.ShloMosaic.ValueIdx

variable {α : Type}

/-- A column `[a, 1]` cast to the vector `[a]` reads, at `i`, the column's entry `(i, 0)`: both sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` transposed to the row `[1, a]` reads, at `(u, k)`, the column's entry `(k, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (k : Fin a) :
    transpose ⟨2, ![1, a]⟩ [1, 0] x h (ix2 u k) = x (ix2 k (0 : Fin 1)) :=
  (transpose_ix2_apply x h u k).trans (congrArg (fun w => x (ix2 k w)) (Subsingleton.elim u 0))

end Cert.LibRowColumn

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.Bridge.lean ====
/-
  The two programs compute the same number. Both end with `lossTail` of a vector of 4096 entries, so it is enough
  that the two vectors agree row by row. Row `r` of the kernel side is `pick x t r - logsumexp x r`; row `r` of the
  reference side is `pick (logSoftmax x) t r`. The two `pick`s test the same index against the same range and gather
  at the same column `J` of the same row `r`. Where the index is in range the claim is
  `x r J - (M + log S) = (x r J - M') - log S'` with `M, S` the block-wise and `M', S'` the whole-row maximum and
  sum of exponentials: `online_logsumexp`, which needs the logits to be real numbers — the precondition. Where
  it is out of range both sides hold the not-a-number word, which reads -∞, and `-∞ - y = -∞`.
-/
import proofs.«164738_j86629490360769_2_alg».proof.Proof.KernelRun
import proofs.«164738_j86629490360769_2_alg».proof.Proof.RefRun
import proofs.«164738_j86629490360769_2_alg».proof.Proof.LibOnlineLogSumExp
import proofs.«164738_j86629490360769_2_alg».proof.Proof.Rows
import proofs.«164738_j86629490360769_2_alg».proof.Proof.LibRowReduce
import proofs.«164738_j86629490360769_2_alg».proof.Proof.LibRowColumn
import proofs.«164738_j86629490360769_2_alg».proof.Proof.LibBroadcastInDim
import Idealize.ShloMosaic.Lib.ValueIdx
import Idealize.ShloMosaic.PureOps.Ideal.Laws

noncomputable section

open Idealize.ShloMosaic Idealize.ShloMosaic.ValueIdx

namespace Cert.Bridge

open Cert.LibOnlineLogSumExp Cert.Rows

/-- The not-a-number word reads -∞. -/
theorem nanWord : Ideal.ofBits .f32 0x7FC00000#32 = (⊥ : EReal) := by simp [Ideal.ofBits, Ideal.ieee]

/-- The word 0xFF800000 is -∞. -/
theorem negInf : Ideal.ofBits .f32 0xFF800000#32 = (⊥ : EReal) := by simp [Ideal.ofBits, Ideal.ieee]

/-- The host's logarithm and exponential at an index are the extended reals'. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-! ## The gather reads row `r` of its operand at row `r` -/

/-- The operand index the gather reads for result row `r` is some column of row `r`. -/
theorem gather_row (idx : IVec Cert.KernelIdeal.S4096x1x1 32) (r : Fin 4096) (u : Fin 1) :
    ∃ c : Fin 32000, Cert.KernelIdeal.gather_S4096x32000_S4096x1x1_S4096x1_n_1_0_0_1_2_11.operandIdx (ix2 r u) idx = ix2 r c := by
  refine ⟨(Cert.KernelIdeal.gather_S4096x32000_S4096x1x1_S4096x1_n_1_0_0_1_2_11.operandIdx (ix2 r u) idx) 1, ?_⟩
  refine (eq_ix2 _).trans ?_
  refine congrArg (fun a : Fin 4096 => ix2 a ((Cert.KernelIdeal.gather_S4096x32000_S4096x1x1_S4096x1_n_1_0_0_1_2_11.operandIdx (ix2 r u) idx) 1)) ?_
  apply Fin.ext
  show Cert.KernelIdeal.gather_S4096x32000_S4096x1x1_S4096x1_n_1_0_0_1_2_11.start (ix2 r u) idx 0
    + Cert.KernelIdeal.gather_S4096x32000_S4096x1x1_S4096x1_n_1_0_0_1_2_11.batchCoord (ix2 r u) 0
    + Cert.KernelIdeal.gather_S4096x32000_S4096x1x1_S4096x1_n_1_0_0_1_2_11.offCoord (ix2 r u) 0 = r.val
  rw [GatherDims.start_batching _ _ _ _ (by decide), GatherDims.offCoord_eq_zero _ _ _ (by decide)]
  show 0 + Cert.KernelIdeal.gather_S4096x32000_S4096x1x1_S4096x1_n_1_0_0_1_2_11.batchCoord (ix2 r u) 0 + 0 = r.val
  rw [Nat.zero_add, Nat.add_zero]
  rfl

/-! ## The reference's log-softmax at an index -/

section Reference
open Cert.ReferenceIdeal Cert.ReferenceIdeal.Facts₀

/-- The row maximum spread over the matrix, as the host spells it. -/
def maxB (x : FVec Ideal S4096x32000 .f32) : FVec Ideal S4096x32000 .f32 :=
  broadcastInDim S4096x32000 ![0, 1] bcast_S4096x1_S4096x32000_0_1 (broadcastInDim S4096x1 ![0] bcast_S4096_S4096x1_0
    (maximumf (broadcastInDim S4096 ![] bcast_S_S4096 (constant S_ .f32 0xFF800000#32))
      (Host.reduce FloatOps.maximumf x (constant S_ .f32 0xFF800000#32) reducesTo_S4096x32000_S4096_d1 h_S_)))

/-- The logarithm of the row sum of shifted exponentials spread over the matrix, as the host spells it. -/
def logSumB (x : FVec Ideal S4096x32000 .f32) : FVec Ideal S4096x32000 .f32 :=
  broadcastInDim S4096x32000 ![0, 1] bcast_S4096x1_S4096x32000_0_1 (Host.log (broadcastInDim S4096x1 ![0] bcast_S4096_S4096x1_0
    (Host.reduceAdd (Host.exp (subf x (maxB x))) (constant S_ .f32 0x00000000#32) reducesTo_S4096x32000_S4096_d1 h_S_)))

theorem logSoftmax_eq (x : FVec Ideal S4096x32000 .f32) :
    HandRun.logSoftmax (F := Ideal) x = subf (subf x (maxB x)) (logSumB x) := rfl

/-- Row `r` read column by column is the row function of `Rows`. -/
theorem row_fun (x : FVec Ideal S4096x32000 .f32) (r : Fin 4096) :
    (fun o : Fin 32000 => x (ix2 r o)) = fun o : Fin 32000 => rowOf x r.val o.val :=
  funext fun o => (rowOf_apply x r o).symm

/-- A reduction along the rows of the matrix leaves one number per row. -/
theorem rows_reduce : S4096x32000.Reduces [1] S4096 := by
  obtain ⟨h, hs⟩ := reducesTo_S4096x32000_S4096_d1
  exact ⟨h, Nat.one_pos, hs⟩

theorem maxB_apply (x : FVec Ideal S4096x32000 .f32) (r : Fin 4096) (c : Fin 32000) :
    maxB x (ix2 r c) = rowMax (rowOf x r.val) 32000 := by
  unfold maxB rowMax
  refine (Cert.LibBroadcastInDim.col_mat_apply _ _ r c).trans ?_
  refine (Cert.LibBroadcastInDim.vec_col_apply _ _ r (0 : Fin 1)).trans ?_
  refine (maximumf_apply _ _ (ix1 r)).trans ?_
  refine congrArg₂ (fun a b : EReal => max a b) ?_ ?_
  · exact (Cert.LibBroadcastInDim.scalar_apply _ _ _ (ix1 r)).trans negInf
  · refine (Cert.LibRowReduce.hostReduce_max_row (φ := .f32) x _ _ rows_reduce _ r).trans ?_
    exact congrArg₂ (fun (a : EReal) (f : Fin 32000 → EReal) => (Finset.univ : Finset (Fin 32000)).fold max a f)
      negInf (row_fun x r)

theorem logSumB_apply (x : FVec Ideal S4096x32000 .f32) (r : Fin 4096) (c : Fin 32000) :
    logSumB x (ix2 r c) = Ideal.log (rowSum (rowOf x r.val) 32000) := by
  unfold logSumB rowSum
  refine (Cert.LibBroadcastInDim.col_mat_apply _ _ r c).trans ?_
  refine (hostLog_apply _ _).trans ?_
  refine congrArg Ideal.log ?_
  refine (Cert.LibBroadcastInDim.vec_col_apply _ _ r (0 : Fin 1)).trans ?_
  refine (Cert.LibRowReduce.hostReduceAdd_row (φ := .f32) _ _ _ rows_reduce _ r).trans ?_
  refine congrArg₂ (fun a b : EReal => a + b) Ideal.ofBits_zero_f32 ?_
  refine Finset.sum_congr rfl fun o _ => ?_
  refine (hostExp_apply _ _).trans ?_
  refine congrArg Ideal.exp ?_
  refine (subf_apply _ _ (ix2 r o)).trans ?_
  exact congrArg₂ (fun a b : EReal => a - b) (rowOf_apply x r o).symm (maxB_apply x r o)

theorem logSoftmax_apply (x : FVec Ideal S4096x32000 .f32) (r : Fin 4096) (c : Fin 32000) :
    HandRun.logSoftmax (F := Ideal) x (ix2 r c)
      = (x (ix2 r c) - rowMax (rowOf x r.val) 32000) - Ideal.log (rowSum (rowOf x r.val) 32000) := by
  refine (congrFun (logSoftmax_eq x) (ix2 r c)).trans ?_
  refine (subf_apply _ _ (ix2 r c)).trans ?_
  refine congrArg₂ (fun a b : EReal => a - b) ?_ (logSumB_apply x r c)
  refine (subf_apply _ _ (ix2 r c)).trans ?_
  exact congrArg (fun b : EReal => x (ix2 r c) - b) (maxB_apply x r c)

end Reference

/-! ## The two gathers are one -/

/-- The kernel side's picked entry of row `r`. -/
theorem pick_kernel (x : FVec Ideal Cert.KernelIdeal.S4096x32000 .f32) (t : IVec Cert.KernelIdeal.S4096 32) (r : Fin 4096) :
    Cert.KernelIdeal.HostSide.pick (F := Ideal) x t (ix2 r (0 : Fin 1))
      = Scalar.select (Cert.KernelIdeal.HostSide.takeMask t (ix2 r (0 : Fin 1)))
          (x (Cert.KernelIdeal.gather_S4096x32000_S4096x1x1_S4096x1_n_1_0_0_1_2_11.operandIdx (ix2 r (0 : Fin 1)) (Cert.KernelIdeal.HostSide.takeIdx t)))
          (Ideal.ofBits .f32 0x7FC00000#32) := by
  unfold Cert.KernelIdeal.HostSide.pick
  refine (select_apply _ _ _ (ix2 r (0 : Fin 1))).trans ?_
  exact congrArg (Scalar.select (Cert.KernelIdeal.HostSide.takeMask t (ix2 r (0 : Fin 1)))
      (x (Cert.KernelIdeal.gather_S4096x32000_S4096x1x1_S4096x1_n_1_0_0_1_2_11.operandIdx (ix2 r (0 : Fin 1)) (Cert.KernelIdeal.HostSide.takeIdx t))))
    (Cert.LibBroadcastInDim.scalar_apply _ _ _ (ix2 r (0 : Fin 1)))

/-- The two programs test the same indices and start the gather at the same places. -/
theorem takeMask_eq (t : IVec Cert.KernelIdeal.S4096 32) : Cert.ReferenceIdeal.HandRun.takeMask t = Cert.KernelIdeal.HostSide.takeMask t := rfl
theorem takeIdx_eq (t : IVec Cert.KernelIdeal.S4096 32) : Cert.ReferenceIdeal.HandRun.takeIdx t = Cert.KernelIdeal.HostSide.takeIdx t := rfl

/-- The reference side's picked entry of row `r`, in the kernel side's words. -/
theorem pick_reference (y : FVec Ideal Cert.KernelIdeal.S4096x32000 .f32) (t : IVec Cert.KernelIdeal.S4096 32) (r : Fin 4096) :
    Cert.ReferenceIdeal.HandRun.pick (F := Ideal) y t (ix2 r (0 : Fin 1))
      = Scalar.select (Cert.KernelIdeal.HostSide.takeMask t (ix2 r (0 : Fin 1)))
          (y (Cert.KernelIdeal.gather_S4096x32000_S4096x1x1_S4096x1_n_1_0_0_1_2_11.operandIdx (ix2 r (0 : Fin 1)) (Cert.KernelIdeal.HostSide.takeIdx t)))
          (Ideal.ofBits .f32 0x7FC00000#32) := by
  unfold Cert.ReferenceIdeal.HandRun.pick
  refine (select_apply _ _ _ (ix2 r (0 : Fin 1))).trans ?_
  rw [takeMask_eq, takeIdx_eq]
  exact congrArg (Scalar.select (Cert.KernelIdeal.HostSide.takeMask t (ix2 r (0 : Fin 1)))
      (y (Cert.KernelIdeal.gather_S4096x32000_S4096x1x1_S4096x1_n_1_0_0_1_2_11.operandIdx (ix2 r (0 : Fin 1)) (Cert.KernelIdeal.HostSide.takeIdx t))))
    (Cert.LibBroadcastInDim.scalar_apply _ _ _ (ix2 r (0 : Fin 1)))

/-! ## Row by row, then the whole -/

/-- Row `r`: the kernel side's picked logit minus the row's log-sum-exp is the reference side's picked log-probability. -/
theorem row_eq (x : FVec Ideal Cert.KernelIdeal.S4096x32000 .f32) (t : IVec Cert.KernelIdeal.S4096 32)
    (hfin : ∀ i, ∃ v : ℝ, x i = (v : EReal)) (r : Fin 4096) :
    Cert.KernelIdeal.HostSide.pick (F := Ideal) x t (ix2 r (0 : Fin 1)) - Cert.KernelIdeal.Lse.lseCol x (ix2 r (0 : Fin 1))
      = Cert.ReferenceIdeal.HandRun.pick (F := Ideal) (Cert.ReferenceIdeal.HandRun.logSoftmax (F := Ideal) x) t (ix2 r (0 : Fin 1)) := by
  obtain ⟨cJ, hJ⟩ := gather_row (Cert.KernelIdeal.HostSide.takeIdx t) r (0 : Fin 1)
  rw [pick_kernel x t r, pick_reference (Cert.ReferenceIdeal.HandRun.logSoftmax (F := Ideal) x) t r, nanWord]
  rcases BitVec.eq_zero_or_eq_one (Cert.KernelIdeal.HostSide.takeMask t (ix2 r (0 : Fin 1))) with h0 | h1
  · rw [h0, select_zero, select_zero]
    exact EReal.bot_sub _
  · rw [h1, select_one, select_one, hJ, logSoftmax_apply]
    exact online_logsumexp (rowOf x r.val) 3200 9 (by norm_num) (fun c => hfin _) _ (hfin _)

/-- The two programs end with the same function of their last vector. -/
theorem lossTail_eq (v : FVec Ideal Cert.KernelIdeal.S4096 .f32) :
    Cert.ReferenceIdeal.HandRun.lossTail (F := Ideal) v = Cert.KernelIdeal.HostSide.lossTail (F := Ideal) v := rfl

/-- The two programs' results are equal. -/
theorem results_eq (x : FVec Ideal Cert.KernelIdeal.S4096x32000 .f32) (t : IVec Cert.KernelIdeal.S4096 32)
    (hfin : ∀ i, ∃ v : ℝ, x i = (v : EReal)) :
    Cert.KernelIdeal.HostSide.lossTail (F := Ideal) (subf
        (shapeCast Cert.KernelIdeal.S4096 (Cert.KernelIdeal.HostSide.pick (F := Ideal) x t) Cert.KernelIdeal.Facts₀.shapeCasts_S4096x1_S4096)
        (shapeCast Cert.KernelIdeal.S4096 (Cert.KernelIdeal.Lse.lseCol x) Cert.KernelIdeal.Facts₀.shapeCasts_S4096x1_S4096))
      = Cert.ReferenceIdeal.HandRun.lossTail (F := Ideal)
          (shapeCast Cert.ReferenceIdeal.S4096 (Cert.ReferenceIdeal.HandRun.pick (F := Ideal) (Cert.ReferenceIdeal.HandRun.logSoftmax (F := Ideal) x) t) Cert.ReferenceIdeal.Facts₀.shapeCasts_S4096x1_S4096) := by
  refine (congrArg (Cert.KernelIdeal.HostSide.lossTail (F := Ideal)) ?_).trans (lossTail_eq _).symm
  funext i
  obtain ⟨r, rfl⟩ : ∃ r : Fin 4096, i = ix1 r := ⟨i 0, eq_ix1 i⟩
  refine (subf_apply _ _ (ix1 r)).trans ?_
  refine (congrArg₂ (fun a b : EReal => a - b) (Cert.LibRowColumn.shapeCast_a1_a_apply _ _ r)
    (Cert.LibRowColumn.shapeCast_a1_a_apply _ _ r)).trans ?_
  refine (row_eq x t hfin r).trans ?_
  exact (Cert.LibRowColumn.shapeCast_a1_a_apply _ _ r).symm

end Cert.Bridge

end
-- ==== Proof.lean ====
/-
  Cross-entropy of a 4096 × 32000 matrix of logits against 4096 class indices: the kernel program against its
  reference, over the extended reals.

  The kernel program gathers the logit at each row's class index on the host, computes each row's log-sum-exp in a
  kernel that sweeps the row in ten tiles of 3200 columns keeping a running maximum and a rescaled running
  sum of exponentials, and returns minus the mean of (picked logit - log-sum-exp). The reference takes the row-wise
  log-softmax of the whole matrix, gathers it at the class indices, and returns minus the mean.

  The three frame claims: the two kernel programs by their generated frames, the reference by its run. The kernel's
  idealization rewrote nothing. The algebraic claim: the kernel's result array is the column of block-wise
  log-sum-exps (the invariant carried through the grid), and row by row
  `x - (M + log S) = (x - M') - log S'` for real logits, where the block-wise `M, S` equal the whole-row `M', S'`;
  a row whose class index is out of range holds the not-a-number word on both sides, which reads -∞ and absorbs the
  subtraction. Finiteness of the logits is used exactly there.
-/
import proofs.«164738_j86629490360769_2_alg».proof.Defs
import proofs.«164738_j86629490360769_2_alg».proof.Proof.Gen.Kernel
import proofs.«164738_j86629490360769_2_alg».proof.Proof.Gen.Kernel.Frame
import proofs.«164738_j86629490360769_2_alg».proof.Proof.Gen.KernelIdeal
import proofs.«164738_j86629490360769_2_alg».proof.Proof.Gen.KernelIdeal.Frame
import proofs.«164738_j86629490360769_2_alg».proof.Proof.Gen.ReferenceIdeal
import proofs.«164738_j86629490360769_2_alg».proof.Proof.Gen.Pre_finite_inputs
import proofs.«164738_j86629490360769_2_alg».proof.Proof.KernelRun
import proofs.«164738_j86629490360769_2_alg».proof.Proof.RefRun
import proofs.«164738_j86629490360769_2_alg».proof.Proof.Finite
import proofs.«164738_j86629490360769_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end; the kernel program's result is `lossTail (pick x t - logsumexp x)`, the reference's
    `lossTail (pick (logSoftmax x) t)` of arguments that agree; the two are one extended real for real logits. -/
theorem algebraic : Cert.algebraic_KernelIdeal_ReferenceIdeal := by
  intro m ρ m' ρ' hpre hagree
  refine ⟨_, Cert.KernelIdeal.HostSide.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact (Cert.Bridge.results_eq _ _ (fun i => Cert.Finite.real_of_pre _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
